-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x4096 : Shape := ⟨3, ![4096, 2, 4096]⟩
abbrev S4096x4096 : Shape := ⟨2, ![4096, 4096]⟩
abbrev S4096 : Shape := ⟨1, ![4096]⟩
abbrev S_ : Shape := ⟨0, ![]⟩

class Facts : Prop where
  bcast_S_S4096x2x4096 : S_.BroadcastsInDim S4096x2x4096 (![] : Fin 0 → Fin S4096x2x4096.rank)
  reducesTo_S4096x2x4096_S_d0_1_2 : S4096x2x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x2x4096 .f32) (main_arg1 : FVec F S4096x4096 .f32) (main_arg2 : FVec F S4096 .f32) : IVec S_ 1 :=
  let main_v0 : FVec F S4096x2x4096 .f32 := Host.absf main_arg0
  let main_cst : FVec F S_ .f32 := constant S_ .f32 0x7F800000#32
  let main_v1 : FVec F S4096x2x4096 .f32 := broadcastInDim S4096x2x4096 ![] bcast_S_S4096x2x4096 main_cst
  let main_v2 : IVec S4096x2x4096 1 := cmpf .olt main_v0 main_v1
  let main_c : IVec S_ 1 := constantI S_ 1 1#1
  let main_v3 : IVec S_ 1 := (fun x v => Host.reduce IntOp.andi x v reducesTo_S4096x2x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x2x4096 : Shape := ⟨3, ![4096, 2, 4096]⟩
abbrev S4096x4096 : Shape := ⟨2, ![4096, 4096]⟩
abbrev S4096 : Shape := ⟨1, ![4096]⟩
abbrev S8192x4096 : Shape := ⟨2, ![8192, 4096]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 8
  | .vmem => 7
  | .smem => 0
  | _ => 0

abbrev bufTy : (tb : Table) → Fin (tcTables nBuf tb) → BufTy
  | .hbm, ⟨0, _⟩ => ⟨S4096x2x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .bf16⟩
  | .hbm, ⟨5, _⟩ => ⟨S4096x4096, .bf16⟩
  | .hbm, ⟨6, _⟩ => ⟨S8192x4096, .f32⟩
  | .hbm, ⟨7, _⟩ => ⟨S4096x2x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4096x2x4096_S8192x4096 : S4096x2x4096.ShapeCasts S8192x4096
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x4096_S4096x2x4096 : S8192x4096.ShapeCasts S4096x2x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x2x4096 : Shape := ⟨3, ![4096, 2, 4096]⟩
abbrev S4096x4096 : Shape := ⟨2, ![4096, 4096]⟩
abbrev S4096 : Shape := ⟨1, ![4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2x4096, .f32⟩
  | .hbm, ⟨1, _⟩ => ⟨S4096x4096, .f32⟩
  | .hbm, ⟨2, _⟩ => ⟨S4096, .f32⟩
  | .hbm, ⟨3, _⟩ => ⟨S4096x2x4096, .f32⟩
  | _, _ => ⟨S4096x2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  dot_S4096x2x4096_S4096x4096_S4096x2x4096_2_1_01_0_n_n_wf : DotDims.WF S4096x2x4096 S4096x4096 S4096x2x4096 [2] [1] [0, 1] [0] [] []

variable [Facts₀]

def dot_S4096x2x4096_S4096x4096_S4096x2x4096_2_1_01_0_n_n : DotDims S4096x2x4096 S4096x4096 S4096x2x4096 where
  lhsContracting := [2]
  rhsContracting := [1]
  lhsNonContracting := [0, 1]
  rhsNonContracting := [0]
  lhsBatch := []
  rhsBatch := []
  wf := dot_S4096x2x4096_S4096x4096_S4096x2x4096_2_1_01_0_n_n_wf

class Facts : Prop extends Facts₀ where

variable [Facts]
-- ==== Proof.Pieces.lean ====
/-
  What one grid point's body leaves behind, as values. The body keeps a running block product in a scratch
  accumulator: at the first K-block it stores a block of zeros, then (at every K-block) it overwrites the accumulator
  with  acc + x_blk * w_blk^T ; at the last K-block it copies the accumulator to the output block. So, whatever the
  staging buffers, the accumulator after a point is the second payload (the accumulator found plus the block product)
  applied to the two input blocks and to what the accumulator held before (the block of zeros at a first K-block),
  and the output block written at a last K-block is that same value.
-/
import proofs.«170807_j44856638439902_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-block access, as a constant function. -/
theorem off_zero : (![0, 0] : Fin 2 → Nat) = fun _ => 0 := funext fun a => by fin_cases a <;> rfl

/-- A middle K-block (neither first nor last): the accumulator ends at  acc + x_blk * w_blk^T  of what it held. -/
theorem acc_mid (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : ¬cond0_1 i)
    (x0 : Vec F S1024x512 .bf16) (x1 : Vec F S2048x512 .bf16) (xs0 : Vec F S1024x2048 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero off_zero]
  simp only [View.readAt_eq_ld, h3.read_unread, h4.read_unread, h6.read_unread, View.ld_unit_zero (S := S1024x512) off_zero,
    View.ld_unit_zero (S := S2048x512) off_zero, View.ld_unit_zero (S := S1024x2048) off_zero]

/-- The last K-block: the accumulator ends at  acc + x_blk * w_blk^T  of what it held, -/
theorem acc_last (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x512 .bf16) (x1 : Vec F S2048x512 .bf16) (xs0 : Vec F S1024x2048 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero off_zero]
  simp only [View.readAt_eq_ld, h3.read_unread, h4.read_unread, h6.read_unread, View.ld_unit_zero (S := S1024x512) off_zero,
    View.ld_unit_zero (S := S2048x512) off_zero, View.ld_unit_zero (S := S1024x2048) off_zero]

/-- and the output block it writes is the accumulator read back: the same value. -/
theorem out_last (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x512 .bf16) (x1 : Vec F S2048x512 .bf16) (xs0 : Vec F S1024x2048 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero off_zero, View.readCov_unit_zero (S := S1024x2048) _ off_zero]
  simp only [View.readAt_eq_ld, h3.read_unread, h4.read_unread, h6.read_unread, View.ld_unit_zero (S := S1024x512) off_zero,
    View.ld_unit_zero (S := S2048x512) off_zero, View.ld_unit_zero (S := S1024x2048) off_zero]

/-- The first K-block: the accumulator is zeroed first, so it ends at  0 + x_blk * w_blk^T. -/
theorem acc_first (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : cond0_0 i) (hc1 : ¬cond0_1 i)
    (x0 : Vec F S1024x512 .bf16) (x1 : Vec F S2048x512 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2048) off_zero, View.readCov_unit_zero (S := S1024x2048) _ off_zero]
  simp only [View.readAt_eq_ld, h3.read_unread, h4.read_unread, View.ld_unit_zero (S := S1024x512) off_zero,
    View.ld_unit_zero (S := S2048x512) off_zero]

end Cert.KernelIdeal.Pieces

end
-- ==== Proof.Payload.lean ====
/-
  The body's two payloads read at one entry, on the extended reals. The zero block is 0 everywhere. The accumulate
  step, at row a and column b of the 1024 x 2048 block, is the accumulator's entry plus the dot product of row a of the
  activation block with row b of the weight block (both 512 long): the matrix product into a zero accumulator is the
  plain sum over the one contracted axis, and the changes of float format and the trivial shape casts are identities.
-/
import proofs.«170807_j44856638439902_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- The contraction record of the body's matrix product: axis 1 of each operand. -/
abbrev DD : DotDims S1024x512 S2048x512 S1024x2048 := dot_S1024x512_S2048x512_S1024x2048_1_1_0_0_n_n

theorem lhs_row (j : S1024x2048.Idx) (q : DD.contr.Idx) : (DD.lhsIdx j q 0).val = (j 0).val := by
  unfold DotDims.lhsIdx
  rw [dif_neg (show ¬(0 : Fin S1024x512.rank) ∈ DD.lhsBatch by decide), dif_pos (show (0 : Fin S1024x512.rank) ∈ DD.lhsNonContracting by decide)]
  rfl
theorem lhs_k (j : S1024x2048.Idx) (q : DD.contr.Idx) : (DD.lhsIdx j q 1).val = (q ⟨0, by decide⟩).val :=
  DD.lhsIdx_val_of_single rfl j q
theorem rhs_row (j : S1024x2048.Idx) (q : DD.contr.Idx) : (DD.rhsIdx j q 0).val = (j 1).val := by
  unfold DotDims.rhsIdx
  rw [dif_neg (show ¬(0 : Fin S2048x512.rank) ∈ DD.rhsBatch by decide), dif_pos (show (0 : Fin S2048x512.rank) ∈ DD.rhsNonContracting by decide)]
  rfl
theorem rhs_k (j : S1024x2048.Idx) (q : DD.contr.Idx) : (DD.rhsIdx j q 1).val = (q ⟨0, by decide⟩).val :=
  DD.rhsIdx_val_of_single rfl j q

/-- The block product into a zero accumulator, at (a, b): the dot product of the two rows. -/
theorem blockProduct_apply (x0 : FVec Ideal S1024x512 .bf16) (x1 : FVec Ideal S2048x512 .bf16) (a : Fin 1024) (b : Fin 2048) :
    FloatOps.matmul DD none x0 x1 (constant S1024x2048 .f32 0x00000000#32) (ix2 a b)
      = ∑ l : Fin 512, x0 (ix2 a l) * x1 (ix2 b l) := by
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 a b) ((contrEquiv1 DD 512 rfl rfl).symm k) = ix2 a k := funext fun d => Fin.ext (by
    match d with
    | ⟨0, _⟩ => exact lhs_row _ _
    | ⟨1, _⟩ => exact (lhs_k _ _).trans hk)
  have er : DD.rhsIdx (ix2 a b) ((contrEquiv1 DD 512 rfl rfl).symm k) = ix2 b k := funext fun d => Fin.ext (by
    match d with
    | ⟨0, _⟩ => exact rhs_row _ _
    | ⟨1, _⟩ => exact (rhs_k _ _).trans hk)
  rw [el, er]

/-- The dot product of row a of an activation block with row b of a weight block. -/
def rowDot (x0 : Vec Ideal S1024x512 .bf16) (x1 : Vec Ideal S2048x512 .bf16) (a : Fin 1024) (b : Fin 2048) : EReal :=
  ∑ l : Fin 512, x0 (ix2 a l) * x1 (ix2 b l)

/-- The accumulate step at (a, b). -/
theorem accumulate_apply (x0 : Vec Ideal S1024x512 .bf16) (x1 : Vec Ideal S2048x512 .bf16) (acc : Vec Ideal S1024x2048 .f32)
    (a : Fin 1024) (b : Fin 2048) :
    k0_pay2 (F := Ideal) x0 x1 acc (ix2 a b) = acc (ix2 a b) + rowDot x0 x1 a b := by
  unfold k0_pay2
  simp only [shapeCast_self]
  refine (addf_apply _ _ _).trans ?_
  exact congrArg (acc (ix2 a b) + ·) (blockProduct_apply x0 x1 a b)

/-- The zero block at (a, b). -/
theorem zeroBlock_apply (a : Fin 1024) (b : Fin 2048) : k0_pay1 (F := Ideal) (ix2 a b) = 0 := by
  unfold k0_pay1
  simp only [shapeCast_self]
  exact Ideal.ofBits_zero_f32

end Cert.KernelIdeal.Payload

end
-- ==== Proof.PartialDot.lean ====
/-
  The one piece of algebra in this certificate. For A of shape [8192, 4096] and B of shape [4096, 4096] over the
  extended reals, entry (r, o) of A * B^T is the dot product of row r of A with row o of B, a sum over 4096 entries.
  The kernel adds it up 512 entries at a time. Write partialDot K for the sum of the first K products; then
    partialDot 0 = 0,   partialDot (K + 512) = partialDot K + (the next 512 products),   partialDot 4096 = the dot product.
  Only associativity of a finite sum in a commutative additive monoid is used (a sum over range (K + n) splits at K), so
  nothing is asked of the entries: infinite entries are allowed.
  Also here: where grid point number n (of 8 x 2 x 8 points, the K-block index running fastest) sits in the arrays.
-/
import Idealize.ShloMosaic.Lib.ValueIdx
import Idealize.ShloMosaic.PureOps.Ideal

noncomputable section

open Idealize.ShloMosaic Idealize.ShloMosaic.ValueIdx

namespace Cert.PartialDot

variable (A : (⟨2, ![8192, 4096]⟩ : Shape).Idx → EReal) (B : (⟨2, ![4096, 4096]⟩ : Shape).Idx → EReal)
  (r : Fin 8192) (o : Fin 4096)

/-- The q-th product of the two rows; 0 past the end of the rows. -/
def term (q : ℕ) : EReal := if h : q < 4096 then A (ix2 r ⟨q, h⟩) * B (ix2 o ⟨q, h⟩) else 0

/-- The sum of the first K products. -/
def partialDot (K : ℕ) : EReal := ∑ q ∈ Finset.range K, term A B r o q

/-- The dot product of row r of A with row o of B. -/
def dotRow : EReal := ∑ q : Fin 4096, A (ix2 r q) * B (ix2 o q)

theorem partialDot_zero : partialDot A B r o 0 = 0 := Finset.sum_range_zero _

/-- One more block of 512 products: u and v are the two rows' next 512 entries. -/
theorem partialDot_step (K : ℕ) (hK : K + 512 ≤ 4096) (u v : Fin 512 → EReal)
    (hu : ∀ (l : Fin 512) (h : K + l.val < 4096), u l = A (ix2 r ⟨K + l.val, h⟩))
    (hv : ∀ (l : Fin 512) (h : K + l.val < 4096), v l = B (ix2 o ⟨K + l.val, h⟩)) :
    partialDot A B r o K + ∑ l : Fin 512, u l * v l = partialDot A B r o (K + 512) := by
  unfold partialDot
  rw [Finset.sum_range_add, Finset.sum_range (fun l => term A B r o (K + l))]
  refine congrArg (_ + ·) (Finset.sum_congr rfl fun l _ => ?_)
  have h : K + l.val < 4096 := by have := l.isLt; omega
  unfold term
  rw [dif_pos h, hu l h, hv l h]

/-- All 4096 products: the dot product. -/
theorem partialDot_full : partialDot A B r o 4096 = dotRow A B r o := by
  unfold partialDot dotRow
  rw [Finset.sum_range]
  refine Finset.sum_congr rfl fun q _ => ?_
  unfold term
  rw [dif_pos q.isLt]

/-! ## Where a grid point sits -/

/-- Row a of point n's activation and output blocks, in the [8192, ...] arrays: block row n / 16. -/
def rowAt (n : ℕ) (hn : n < 128) (a : Fin 1024) : Fin 8192 := ⟨1024 * (n / 16) + a.val, by have := a.isLt; omega⟩
/-- Row b of point n's weight block (column b of its output block): block n / 8 mod 2. -/
def colAt (n : ℕ) (hn : n < 128) (b : Fin 2048) : Fin 4096 := ⟨2048 * (n / 8 % 2) + b.val, by have := b.isLt; omega⟩

/-- Within one run of 8 consecutive points the output block does not move. -/
theorem rowAt_pred (n : ℕ) (hn : n < 128) (h0 : ¬n % 8 = 0) (a : Fin 1024) :
    rowAt (n - 1) (by omega) a = rowAt n hn a := Fin.ext (by show 1024 * ((n - 1) / 16) + a.val = 1024 * (n / 16) + a.val; omega)
theorem colAt_pred (n : ℕ) (hn : n < 128) (h0 : ¬n % 8 = 0) (b : Fin 2048) :
    colAt (n - 1) (by omega) b = colAt n hn b := Fin.ext (by show 2048 * ((n - 1) / 8 % 2) + b.val = 2048 * (n / 8 % 2) + b.val; omega)

end Cert.PartialDot

end
-- ==== Proof.Blocks.lean ====
/-
  Where the three windows' blocks sit at grid point number n (the grid is 8 x 2 x 8, the K-block index fastest):
  the activation block is rows 1024 * (n / 16) ... of the [8192, 4096] array and columns 512 * (n mod 8) ...;
  the weight block is rows 2048 * (n / 8 mod 2) ... of the [4096, 4096] array and the same columns;
  the output block is rows 1024 * (n / 16) ... and columns 2048 * (n / 8 mod 2) ... of the [8192, 4096] result.
  The three index maps are decided once over the 128 points; every block read is then arithmetic.
-/
import proofs.«170807_j44856638439902_2_alg».proof.Proof.Gen.KernelIdeal.Frame
import proofs.«170807_j44856638439902_2_alg».proof.Proof.PartialDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.PartialDot

variable {F : FTy → Type} [FloatOps F]
variable (m : (ℓ : Loc nD τ sig) → Buf (Elt F) ℓ)

/-- A point's number is below 128. -/
theorem lt128 (t : Fin cfg0.N) : t.val < 128 := lt_of_lt_of_eq t.isLt N_0

/-- The three index maps in closed form, decided over the grid. -/
theorem index_facts : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = t.val / 16 ∧ win0_2.index t (1 : Fin 2) = t.val / 8 % 2 :=
  (by decide +kernel : ∀ t : Fin grid0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = t.val / 16 ∧ win0_2.index t (1 : Fin 2) = t.val / 8 % 2)

/-- Entry (a, l) of the activation block at point t. -/
theorem actBlock_apply (c : Dev nD) (t : Fin cfg0.N) (a : Fin 1024) (l : Fin 512) (h : 512 * (t.val % 8) + l.val < 4096) :
    (iblk m c 0 t : Vec F S1024x512 .bf16) (ix2 a l)
      = (V m c main_v1 : S8192x4096.Idx → Elt F .bf16) (ix2 (rowAt t.val (lt128 t) a) ⟨512 * (t.val % 8) + l.val, h⟩) := by
  unfold iblk
  rw [View.read_apply]
  show V m c main_v1 _ = V m c main_v1 _
  refine congrArg _ (funext fun d => Fin.ext ?_)
  match d with
  | ⟨0, _⟩ => show win0_0.index t 0 * 1024 + 1 * a.val = 1024 * (t.val / 16) + a.val; rw [(index_facts t).1]; omega
  | ⟨1, _⟩ => show win0_0.index t 1 * 512 + 1 * l.val = 512 * (t.val % 8) + l.val; rw [(index_facts t).2.1]; omega

/-- Entry (b, l) of the weight block at point t. -/
theorem wgtBlock_apply (c : Dev nD) (t : Fin cfg0.N) (b : Fin 2048) (l : Fin 512) (h : 512 * (t.val % 8) + l.val < 4096) :
    (iblk m c 1 t : Vec F S2048x512 .bf16) (ix2 b l)
      = (V m c main_v2 : S4096x4096.Idx → Elt F .bf16) (ix2 (colAt t.val (lt128 t) b) ⟨512 * (t.val % 8) + l.val, h⟩) := by
  unfold iblk
  rw [View.read_apply]
  show V m c main_v2 _ = V m c main_v2 _
  refine congrArg _ (funext fun d => Fin.ext ?_)
  match d with
  | ⟨0, _⟩ => show win0_1.index t 0 * 2048 + 1 * b.val = 2048 * (t.val / 8 % 2) + b.val; rw [(index_facts t).2.2.1]; omega
  | ⟨1, _⟩ => show win0_1.index t 1 * 512 + 1 * l.val = 512 * (t.val % 8) + l.val; rw [(index_facts t).2.2.2.1]; omega

/-- Where entry (a, b) of the output block at point t sits in the result array. -/
theorem outBlock_emb (t : Fin cfg0.N) (a : Fin 1024) (b : Fin 2048) :
    (((cfg0.win 2).blk t).view.emb (ix2 a b) : S8192x4096.Idx) = ix2 (rowAt t.val (lt128 t) a) (colAt t.val (lt128 t) b) := by
  refine funext fun d => Fin.ext ?_
  match d with
  | ⟨0, _⟩ => show win0_2.index t 0 * 1024 + 1 * a.val = 1024 * (t.val / 16) + a.val; rw [(index_facts t).2.2.2.2.1]; omega
  | ⟨1, _⟩ => show win0_2.index t 1 * 2048 + 1 * b.val = 2048 * (t.val / 8 % 2) + b.val; rw [(index_facts t).2.2.2.2.2]; omega

end Cert.KernelIdeal.Blocks

end
-- ==== Proof.Accum.lean ====
/-
  The accumulation across the grid, on the extended reals. Write A for the [8192, 4096] activation array and B for the
  [4096, 4096] weight array as the kernel's region finds them. Grid point number n works on output block
  (n / 16, n / 8 mod 2) and on K-block n mod 8. By induction on n: after point n, entry (a, b) of the carried
  accumulator is the sum of the first 512 * (n mod 8 + 1) products of row 1024 * (n / 16) + a of A with row
  2048 * (n / 8 mod 2) + b of B. (At n mod 8 = 0 the accumulator is zeroed first; otherwise the point before worked on
  the same output block and left the sum of the products before this K-block.) Hence at a last K-block
  (n mod 8 = 7) the output block that is written back holds the full dot products.
-/
import proofs.«170807_j44856638439902_2_alg».proof.Proof.Pieces
import proofs.«170807_j44856638439902_2_alg».proof.Proof.Payload
import proofs.«170807_j44856638439902_2_alg».proof.Proof.Blocks
import proofs.«170807_j44856638439902_2_alg».proof.Proof.PartialDot

noncomputable section

open Idealize.ShloMosaic Idealize.ShloMosaic.TcCoe Idealize.SL.Sem Idealize.ShloMosaic.ValueIdx

namespace Cert.KernelIdeal.Accum

open Cert.KernelIdeal Cert.KernelIdeal.Gen Cert.PartialDot Cert.KernelIdeal.Blocks

variable (m : (ℓ : Loc nD τ sig) → Buf (Elt Ideal) ℓ)

/-- The activation array as the region finds it. -/
def actArr (c : Dev nD) : S8192x4096.Idx → EReal := V m c main_v1
/-- The weight array as the region finds it. -/
def wgtArr (c : Dev nD) : S4096x4096.Idx → EReal := V m c main_v2

/-- One accumulate step at point t: from the sum of the products before this K-block to the sum through it. -/
theorem step_at (c : Dev nD) (t : Fin cfg0.N) (a : Fin 1024) (b : Fin 2048) :
    partialDot (actArr m c) (wgtArr m c) (rowAt t.val (lt128 t) a) (colAt t.val (lt128 t) b) (512 * (t.val % 8))
        + Payload.rowDot (iblk m c 0 t) (iblk m c 1 t) a b
      = partialDot (actArr m c) (wgtArr m c) (rowAt t.val (lt128 t) a) (colAt t.val (lt128 t) b) (512 * (t.val % 8) + 512) :=
  partialDot_step (actArr m c) (wgtArr m c) (rowAt t.val (lt128 t) a) (colAt t.val (lt128 t) b) (512 * (t.val % 8)) (by omega)
    (fun l => (iblk m c 0 t : Vec Ideal S1024x512 .bf16) (ix2 a l)) (fun l => (iblk m c 1 t : Vec Ideal S2048x512 .bf16) (ix2 b l))
    (fun l h => actBlock_apply m c t a l h) (fun l h => wgtBlock_apply m c t b l h)

/-- At a first K-block the accumulator ends at the first 512 products. -/
theorem first_step (c : Dev nD) (t : Fin cfg0.N) (h0 : t.val % 8 = 0) (a : Fin 1024) (b : Fin 2048) :
    (outsAt0 m c t.val t.isLt).2 (ix2 a b)
      = partialDot (actArr m c) (wgtArr m c) (rowAt t.val (lt128 t) a) (colAt t.val (lt128 t) b) (512 * (t.val % 8) + 512) := by
  have h1 : ¬t.val % 8 = 7 := by omega
  rw [outsAt0_A m c t h0 h1]
  dsimp only
  refine (congrFun (Pieces.acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 a b)).trans ?_
  refine (Payload.accumulate_apply (iblk m c 0 t) (iblk m c 1 t) (k0_pay1 (F := Ideal)) a b).trans ?_
  rw [Payload.zeroBlock_apply, ← step_at m c t a b]
  have hk : 512 * (t.val % 8) = 0 := by omega
  rw [hk, partialDot_zero]

/-- At a later K-block the accumulator ends at what the point before left plus this block's 512 products. -/
theorem next_step (c : Dev nD) (t : Fin cfg0.N) (h0 : ¬t.val % 8 = 0)
    (prev : ∀ (a : Fin 1024) (b : Fin 2048), (outsAt0 m c (t.val - 1) (Nat.lt_of_le_of_lt (Nat.sub_le _ _) t.isLt)).2 (ix2 a b)
      = partialDot (actArr m c) (wgtArr m c) (rowAt (t.val - 1) (by have := lt128 t; omega) a) (colAt (t.val - 1) (by have := lt128 t; omega) b) (512 * ((t.val - 1) % 8) + 512))
    (a : Fin 1024) (b : Fin 2048) :
    (outsAt0 m c t.val t.isLt).2 (ix2 a b)
      = partialDot (actArr m c) (wgtArr m c) (rowAt t.val (lt128 t) a) (colAt t.val (lt128 t) b) (512 * (t.val % 8) + 512) := by
  have hk : 512 * ((t.val - 1) % 8) + 512 = 512 * (t.val % 8) := by omega
  have tail : k0_pay2 (F := Ideal) (iblk m c 0 t) (iblk m c 1 t) (outsAt0 m c (t.val - 1) (Nat.lt_of_le_of_lt (Nat.sub_le _ _) t.isLt)).2 (ix2 a b)
      = partialDot (actArr m c) (wgtArr m c) (rowAt t.val (lt128 t) a) (colAt t.val (lt128 t) b) (512 * (t.val % 8) + 512) := by
    refine (Payload.accumulate_apply (iblk m c 0 t) (iblk m c 1 t) _ a b).trans ?_
    rw [prev a b, rowAt_pred t.val (lt128 t) h0 a, colAt_pred t.val (lt128 t) h0 b, hk]
    exact step_at m c t a b
  by_cases h1 : t.val % 8 = 7
  · rw [outsAt0_C m c t h0 h1]
    dsimp only
    exact (congrFun (Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 a b)).trans tail
  · rw [outsAt0_B m c t h0 h1]
    dsimp only
    exact (congrFun (Pieces.acc_mid (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 a b)).trans tail

/-- THE INVARIANT: after point n the accumulator holds the partial dot products through K-block n mod 8. -/
theorem scratch_eq (c : Dev nD) : ∀ (n : ℕ) (hn : n < cfg0.N) (a : Fin 1024) (b : Fin 2048),
    (outsAt0 m c n hn).2 (ix2 a b)
      = partialDot (actArr m c) (wgtArr m c) (rowAt n (lt_of_lt_of_eq hn N_0) a) (colAt n (lt_of_lt_of_eq hn N_0) b) (512 * (n % 8) + 512)
  | 0, hn => fun a b => first_step m c ⟨0, hn⟩ rfl a b
  | n + 1, hn => fun a b => by
    by_cases h0 : (n + 1) % 8 = 0
    · exact first_step m c ⟨n + 1, hn⟩ h0 a b
    · exact next_step m c ⟨n + 1, hn⟩ h0 (fun a b => scratch_eq c n (Nat.lt_of_succ_lt hn) a b) a b

/-- At a last K-block the output block written back holds the full dot products. -/
theorem out_eq (c : Dev nD) (t : Fin cfg0.N) (h7 : t.val % 8 = 7) (a : Fin 1024) (b : Fin 2048) :
    (outsAt0 m c t.val t.isLt).1 (ix2 a b)
      = dotRow (actArr m c) (wgtArr m c) (rowAt t.val (lt128 t) a) (colAt t.val (lt128 t) b) := by
  have h0 : ¬t.val % 8 = 0 := by omega
  have hk : 512 * ((t.val - 1) % 8) + 512 = 512 * (t.val % 8) := by omega
  have hfull : 512 * (t.val % 8) + 512 = 4096 := by omega
  rw [outsAt0_C m c t h0 h7]
  dsimp only
  refine (congrFun (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2) (ix2 a b)).trans ?_
  refine (Payload.accumulate_apply (iblk m c 0 t) (iblk m c 1 t) _ a b).trans ?_
  rw [scratch_eq m c (t.val - 1) (Nat.lt_of_le_of_lt (Nat.sub_le _ _) t.isLt) a b, rowAt_pred t.val (lt128 t) h0 a, colAt_pred t.val (lt128 t) h0 b, hk,
    step_at m c t a b, hfull]
  exact partialDot_full _ _ _ _

end Cert.KernelIdeal.Accum

end
-- ==== Proof.Final.lean ====
/-
  The result array of the kernel's region. The output blocks are written back at the last K-block of each run of 8
  points, and block (bi, bj) (rows 1024 * bi ..., columns 2048 * bj ...) is written at point number (bi * 2 + bj) * 8 + 7.
  Each written block is the matching block of ONE whole-array function: entry (r, o) is the dot product of row r of the
  activation array with row o of the weight array. The 16 blocks tile the [8192, 4096] result, so the result array ends
  holding that function.
-/
import proofs.«170807_j44856638439902_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.PartialDot Cert.KernelIdeal.Blocks Cert.KernelIdeal.Accum

variable (m : (ℓ : Loc nD τ sig) → Buf (Elt Ideal) ℓ)

/-- The product A * B^T as one function of the result's index. -/
def product (c : Dev nD) : S8192x4096.Idx → EReal := fun i =>
  dotRow (actArr m c) (wgtArr m c) ⟨(i 0).val, idx2_lt0 i⟩ ⟨(i 1).val, idx2_lt1 i⟩

theorem product_apply (c : Dev nD) (r : Fin 8192) (o : Fin 4096) :
    product m c (ix2 r o) = dotRow (actArr m c) (wgtArr m c) r o := rfl

/-- What a write-back writes is the matching block of the product. -/
theorem flushed_eq (c : Dev nD) (t : Fin cfg0.N) (hf : (cfg0.win 2).flush t = true) :
    (dats m 0 c).flushed 2 t = ((cfg0.win 2).blk t).view.read (Elt Ideal) (product m c) := by
  have h7 : t.val % 8 = 7 := (flush0_2 t).mp hf
  show (cfg0.win 2).cut (grid0.coords t) ((dats m 0 c).after 2 t) = _
  rw [after0_2]
  funext y
  obtain ⟨a, b, rfl⟩ : ∃ (a : Fin 1024) (b : Fin 2048), y = ix2 a b := ⟨y 0, y 1, eq_ix2 y⟩
  rw [View.read_apply, outBlock_emb, product_apply]
  exact out_eq m c t h7 a b

/-- Every entry of the result lies in the block written at the last K-block of its output block's run. -/
theorem covered (i : S8192x4096.Idx) :
    ∃ t : Fin cfg0.N, (cfg0.win 2).flush t = true ∧ i ∈ ((cfg0.win 2).blk t).view.set := by
  have hr : (i 0).val < 8192 := idx2_lt0 i
  have ho : (i 1).val < 4096 := idx2_lt1 i
  have hN : cfg0.N = 128 := N_0
  let t : Fin cfg0.N := ⟨((i 0).val / 1024 * 2 + (i 1).val / 2048) * 8 + 7, by rw [hN]; omega⟩
  have ht : t.val = ((i 0).val / 1024 * 2 + (i 1).val / 2048) * 8 + 7 := rfl
  refine ⟨t, (flush0_2 t).mpr (by rw [ht]; omega), ?_⟩
  show i ∈ ((View.whole main_v3).slice (win0_2.rect t)).set
  rw [View.set_slice_whole, Rect.mem_set_unit]
  intro d
  match d with
  | ⟨0, _⟩ =>
    show win0_2.index t 0 * 1024 ≤ (i 0).val ∧ (i 0).val < win0_2.index t 0 * 1024 + 1024
    rw [(index_facts t).2.2.2.2.1, ht]; omega
  | ⟨1, _⟩ =>
    show win0_2.index t 1 * 2048 ≤ (i 1).val ∧ (i 1).val < win0_2.index t 1 * 2048 + 2048
    rw [(index_facts t).2.2.2.2.2, ht]; omega

/-- So the result array of the region ends holding the product. -/
theorem final (c : Dev nD) : (dats m 0 c).arrAt 2 cfg0.N = product m c :=
  (dats m 0 c).arrAt_eq_of_cover 2 (product m c) (flushed_eq m c) (covered)

end Cert.KernelIdeal.Final

end
-- ==== Proof.Contract.lean ====
/-
  The function both programs compute: for X of shape [4096, 2, 4096] and W of shape [4096, 4096] over the extended
  reals, entry (s, b, o) is the sum over q of X[s, b, q] * W[o, q].
-/
import Idealize.ShloMosaic.Lib.ValueIdx
import Idealize.ShloMosaic.PureOps.Ideal

noncomputable section

open Idealize.ShloMosaic Idealize.ShloMosaic.ValueIdx

namespace Cert.Contract

/-- The contraction of the last axis of X with the last axis of W, at (s, b, o). -/
def contract (X : (⟨3, ![4096, 2, 4096]⟩ : Shape).Idx → EReal) (W : (⟨2, ![4096, 4096]⟩ : Shape).Idx → EReal)
    (s : Fin 4096) (b : Fin 2) (o : Fin 4096) : EReal :=
  ∑ q : Fin 4096, X (ix3 s b q) * W (ix2 o q)

end Cert.Contract

end
-- ==== Proof.HostSide.lean ====
/-
  The host operations around the kernel's region, and the kernel's run with its result named.
  Before the region: the activation argument X of shape [4096, 2, 4096] is reshaped to [8192, 4096], so row 2 * s + b of
  the activation array is X[s, b, :] (the same row-major position), and both operands change float format, which is the
  identity on the extended reals. After the region: the [8192, 4096] product is reshaped to [4096, 2, 4096], so entry
  (s, b, o) of the result is entry (2 * s + b, o) of the product: the sum over q of X[s, b, q] * W[o, q].
-/
import proofs.«170807_j44856638439902_2_alg».proof.Proof.Final
import proofs.«170807_j44856638439902_2_alg».proof.Proof.Contract
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.HostSide

open Cert.KernelIdeal Cert.KernelIdeal.Gen Cert.PartialDot Cert.KernelIdeal.Blocks Cert.KernelIdeal.Accum Cert.KernelIdeal.Final Cert.Contract

variable (m : (ℓ : Loc nD τ sig) → Buf (Elt Ideal) ℓ) (ρ : Dev nD → PrngReg)

/-- Row 2 * s + b of the activation array, in the [8192, 4096] array. -/
def row2 (s : Fin 4096) (b : Fin 2) : Fin 8192 := ⟨2 * s.val + b.val, by have := s.isLt; have := b.isLt; omega⟩

/-- The activation array the region finds is the reshaped (and re-formatted) first argument. -/
theorem actArr_eq (c : Dev nD) :
    actArr m c = (truncf (F := Ideal) .bf16 (shapeCast S8192x4096 (m ((c : Thread nD τ).loc main_arg0) : FVec Ideal S4096x2x4096 .f32)
      shapeCasts_S4096x2x4096_S8192x4096) bitsLt_bf16_f32 : FVec Ideal S8192x4096 .bf16) := by
  unfold actArr
  show StableHlo.after hostOps0 (fun b => m (c, b)) (Proc.devRef .tc main_v1) = _
  after_results
  rfl

/-- The weight array the region finds is the re-formatted second argument. -/
theorem wgtArr_eq (c : Dev nD) :
    wgtArr m c = (truncf (F := Ideal) .bf16 (m ((c : Thread nD τ).loc main_arg1) : FVec Ideal S4096x4096 .f32) bitsLt_bf16_f32 : FVec Ideal S4096x4096 .bf16) := by
  unfold wgtArr
  show StableHlo.after hostOps0 (fun b => m (c, b)) (Proc.devRef .tc main_v2) = _
  after_results

/-- Entry (2 * s + b, q) of the activation array is X[s, b, q]. -/
theorem actArr_apply (c : Dev nD) (s : Fin 4096) (b : Fin 2) (q : Fin 4096) :
    actArr m c (ix2 (row2 s b) q) = m ((c : Thread nD τ).loc main_arg0) (ix3 s b q) := by
  rw [actArr_eq]
  show shapeCast S8192x4096 (m ((c : Thread nD τ).loc main_arg0) : FVec Ideal S4096x2x4096 .f32)
    shapeCasts_S4096x2x4096_S8192x4096 (ix2 (row2 s b) q) = _
  refine shapeCast_apply _ _ _ _ ?_
  show (S4096x2x4096.rowMajor (ix3 s b q)).val = (S8192x4096.rowMajor (ix2 (row2 s b) q)).val
  rw [Shape.rowMajor_val_three, Shape.rowMajor_val_two]
  show (s.val * 2 + b.val) * 4096 + q.val = (2 * s.val + b.val) * 4096 + q.val
  omega

/-- Entry (o, q) of the weight array is W[o, q]. -/
theorem wgtArr_apply (c : Dev nD) (i : S4096x4096.Idx) :
    wgtArr m c i = m ((c : Thread nD τ).loc main_arg1) i := by
  rw [wgtArr_eq]
  rfl

/-- The kernel's result: the product, reshaped. -/
def result (c : Dev nD) : S4096x2x4096.Idx → EReal :=
  shapeCast S4096x2x4096 (product m c) shapeCasts_S8192x4096_S4096x2x4096

/-- What the host operation after the region leaves in the result buffer. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  unfold result
  rw [(Pipeline.withArrays_arr spec0 launch0.win.arr_inj c _ _ 2).trans (final m c)]
  rfl

/-- Entry (s, b, o) of the result: the sum over q of X[s, b, q] * W[o, q]. -/
theorem result_apply (c : Dev nD) (s : Fin 4096) (b : Fin 2) (o : Fin 4096) :
    result m c (ix3 s b o) = contract (m ((c : Thread nD τ).loc main_arg0)) (m ((c : Thread nD τ).loc main_arg1)) s b o := by
  unfold result
  refine (shapeCast_apply (product m c) _ (ix3 s b o) (ix2 (row2 s b) o) ?_).trans ?_
  · rw [Shape.rowMajor_val_three, Shape.rowMajor_val_two]
    show (2 * s.val + b.val) * 4096 + o.val = (s.val * 2 + b.val) * 4096 + o.val
    omega
  · rw [product_apply]
    unfold dotRow contract
    exact Finset.sum_congr rfl fun q _ => by rw [actArr_apply, wgtArr_apply]

/-- The kernel's run: every weakly fair execution terminates with the result buffer at the reshaped product and the
    three arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.HostSide

end
-- ==== Proof.RefSide.lean ====
/-
  The reference program's result, read index by index: entry (s, b, o) of its one result is the sum over q of
  X[s, b, q] * W[o, q] on the extended reals (an einsum contracting the last axis of both operands).
-/
import proofs.«170807_j44856638439902_2_alg».proof.Proof.Gen.ReferenceIdeal.Read
import Idealize.ShloMosaic.Lib.ValueIdx
import Idealize.ShloMosaic.PureOps.Ideal.Laws
import proofs.«170807_j44856638439902_2_alg».proof.Proof.Contract

noncomputable section

namespace Cert.RefSide

open Idealize.ShloMosaic Idealize.ShloMosaic.TcCoe Idealize.SL.Sem Idealize.ShloMosaic.ValueIdx
open Cert.ReferenceIdeal Cert.ReferenceIdeal.Read Cert.Contract

/-- The reference's contraction at (s, b, o). -/
theorem ref_apply (x0 : (⟨S4096x2x4096, .f32⟩ : BufTy).Contents (Elt Ideal)) (x1 : (⟨S4096x4096, .f32⟩ : BufTy).Contents (Elt Ideal))
    (s : Fin 4096) (b : Fin 2) (o : Fin 4096) :
    val_main_v0 (F := Ideal) x0 x1 (ix3 s b o) = contract x0 x1 s b o := by
  rw [val_main_v0_apply]
  unfold contract
  refine Finset.sum_congr rfl fun q _ => ?_
  have el : lidx_main_v0 (ix3 s b o) q = ix3 s b q := funext fun a => by
    match a with
    | ⟨0, _⟩ => rfl
    | ⟨1, _⟩ => rfl
    | ⟨2, _⟩ => rfl
  have er : ridx_main_v0 (ix3 s b o) q = ix2 o q := funext fun a => by
    match a with
    | ⟨0, _⟩ => rfl
    | ⟨1, _⟩ => rfl
  rw [el, er]

end Cert.RefSide

end
-- ==== Proof.lean ====
/-
  The certificate of a tiled matrix product against an einsum.

  The kernel computes  out[s, b, o] = sum over q of X[s, b, q] * W[o, q]  for X of shape [4096, 2, 4096] and W of shape
  [4096, 4096]: it reshapes X to A of shape [8192, 4096] (row 2 * s + b is X[s, b, :]), changes both operands' float
  format (the identity on the extended reals), and runs a grid of 8 x 2 x 8 points, the last axis over 8 blocks of 512
  along the contracted axis. Each run of 8 points zeroes a 1024 x 2048 accumulator, adds the block product
  A_blk * W_blk^T at every point, and at the eighth writes the accumulator out as one block of the [8192, 4096]
  product, which is finally reshaped to [4096, 2, 4096]. The reference is the einsum itself, one contraction over q.

  On the extended reals the two agree entry by entry: the accumulator after K-block k holds the sum of the first
  512 * (k + 1) products (induction over the grid points), so each written block holds the full sums of 4096 products;
  the 16 written blocks tile the product; and the two reshapes keep row-major positions. The only law used is that a
  finite sum over range (K + n) splits at K, valid in any commutative additive monoid, so the precondition (finite
  inputs) is never needed for the values. The ideal pass rewrote nothing, so the idealization conjunct is trivial;
  the three frames are the generated frame certificates and the reference's generated run.
-/
import proofs.«170807_j44856638439902_2_alg».proof.Defs
import proofs.«170807_j44856638439902_2_alg».proof.Proof.Gen.Kernel
import proofs.«170807_j44856638439902_2_alg».proof.Proof.Gen.Kernel.Frame
import proofs.«170807_j44856638439902_2_alg».proof.Proof.Gen.KernelIdeal
import proofs.«170807_j44856638439902_2_alg».proof.Proof.Gen.KernelIdeal.Frame
import proofs.«170807_j44856638439902_2_alg».proof.Proof.Gen.ReferenceIdeal
import proofs.«170807_j44856638439902_2_alg».proof.Proof.Gen.ReferenceIdeal.Run
import proofs.«170807_j44856638439902_2_alg».proof.Proof.Gen.Pre_finite_inputs
import proofs.«170807_j44856638439902_2_alg».proof.Proof.HostSide
import proofs.«170807_j44856638439902_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result is the reference's contraction of the same arguments, entry by entry. -/
theorem result_eq_ref (m : (ℓ : Loc Cert.KernelIdeal.nD Cert.KernelIdeal.τ Cert.KernelIdeal.sig) → Buf (Elt Ideal) ℓ) (c : Dev Cert.KernelIdeal.nD) :
    Cert.KernelIdeal.HostSide.result m c
      = Cert.ReferenceIdeal.Read.val_main_v0 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨s, b, o, rfl⟩ : ∃ (s : Fin 4096) (b : Fin 2) (o : Fin 4096), i = ix3 s b o := ⟨i 0, i 1, i 2, eq_ix3 i⟩
  rw [Cert.KernelIdeal.HostSide.result_apply, Cert.RefSide.ref_apply]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the result buffer at the contraction of the arguments, and the bias argument untouched. -/
theorem algebraic : Cert.algebraic_KernelIdeal_ReferenceIdeal := by
  intro m ρ m' ρ' _ hagree
  refine ⟨fun c => Cert.KernelIdeal.HostSide.result m c,
    fun c => m ((c.tc : Thread Cert.KernelIdeal.nD Cert.KernelIdeal.τ).loc Cert.KernelIdeal.main_arg2), ?_, ?_⟩
  · exact (θ_run Cert.KernelIdeal.defs _ _).mono
      (fun _ h c => ⟨(h c).1, (h c).2.2.2, (h c).2.1, (h c).2.2.1, (h c).2.2.2⟩) (Cert.KernelIdeal.HostSide.run m ρ)
  · refine (θ_run Cert.ReferenceIdeal.defs _ _).mono
      (fun _ h c => ⟨(h c).1.trans ?_, (h c).2.1.trans (hagree c).2.2, (h c).2.2⟩) (Cert.ReferenceIdeal.Value.run (F := Ideal) m' ρ')
    rw [(hagree c).1, (hagree c).2.1]
    exact (result_eq_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
